-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x2048 .f32) (main_arg4 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x2048, .i1⟩
  | .hbm, ⟨5, _⟩ => ⟨S16x2048x2048, .i32⟩
  | .hbm, ⟨6, _⟩ => ⟨S16x2048x64, .f32⟩
  | .hbm, ⟨7, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .i32⟩
  | .local _ .vmem, ⟨9, _⟩ => ⟨S1x512x2048, .i32⟩
  | .local _ .vmem, ⟨10, _⟩ => ⟨S1x512x64, .f32⟩
  | .local _ .vmem, ⟨11, _⟩ => ⟨S1x512x64, .f32⟩
  | .local _ .vmem, ⟨12, _⟩ => ⟨S1x512x2048, .f32⟩
  | .local _ .vmem, ⟨13, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .i32 = 32 ∨ (Rect.block (s := S16x2048x2048) S1x512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x64.size a ≤ S16x2048x64.size a
  hwx0_5 : ∀ i : grid0.Coords, EltTy.bits .f32 = 32 ∨ (Rect.block (s := S16x2048x64) S1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S16x2048x2048.size a
  hwx0_6 : ∀ i : grid0.Coords, EltTy.bits .f32 = 32 ∨ (Rect.block (s := S16x2048x2048) S1x512x2048.size (cc0_transform_6 i) (hinb0_6 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x2048, .i1⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibSoftmaxRow.lean ====
/-
  A row-wise softmax on the extended reals, and the vector-unit and host operations that compute its pieces,
  each read at an index.

  For a row `s : Fin n → EReal` and a starting value `init`, the row's maximum is the fold of `max` from `init`
  over the row, each entry is shifted by that maximum and exponentiated, and the softmax entry is the quotient of a
  shifted exponential by the sum of all of them along the row. Nothing here needs an entry to be finite: the
  definitions are stated with the operations as they are on the extended reals.

  The readings: a `[a] → [a, 1]` shape cast and an `[a, 1] → [a, b]` broadcast (a reduction kept as a column and
  spread back over the row); the index a one-axis reduction inserts, for the last axis of a rank-2 and of a rank-3
  array; the vector unit's maximum and sum over the last axis of an `[a, n]` block; the host's maximum over the
  last axis of a `[p, a, n]` array; and the f32 word of −∞ as the least extended real.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibSoftmaxRow

open Idealize.ShloMosaic Idealize.ShloMosaic.ValueIdx

/-! ## The row functions -/

/-- The maximum of a row, folded from a starting value. -/
def rowMax {n : ℕ} (init : EReal) (s : Fin n → EReal) : EReal :=
  (Finset.univ : Finset (Fin n)).fold max init s

/-- An entry minus the row's maximum, exponentiated. -/
def expShift {n : ℕ} (init : EReal) (s : Fin n → EReal) (c : Fin n) : EReal :=
  Ideal.exp (s c - rowMax init s)

/-- The softmax entry: a shifted exponential over the sum of the row's shifted exponentials. -/
def softmax {n : ℕ} (init : EReal) (s : Fin n → EReal) (c : Fin n) : EReal :=
  Ideal.div (expShift init s c) (∑ k : Fin n, expShift init s k)

/-- The f32 word of −∞ is the least extended real. -/
theorem ofBits_negInf : Ideal.ofBits .f32 0xFF800000#32 = ⊥ := by
  simp [Ideal.ofBits, Ideal.ieee]

/-- A maximum with −∞ changes nothing. -/
theorem max_negInf (x : EReal) : max (Ideal.ofBits .f32 0xFF800000#32) x = x := by
  rw [ofBits_negInf]; exact max_eq_right bot_le

/-! ## A reduction kept as a column and spread back over the row -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The index a reduction over the last axis inserts -/

/-- Rank 2: the reduced index `r` with column `k` put back is `(r, k)`. -/
theorem lift_row2 {a n : ℕ} (h : (⟨2, ![a, n]⟩ : Shape).Reduces [1] (⟨1, ![a]⟩ : Shape)) (r : Fin a)
    (k : Fin ((⟨2, ![a, n]⟩ : Shape).size 1)) : h.lift (ix1 r) k = ix2 r (⟨k.val, k.isLt⟩ : Fin n) := by
  funext c; apply Fin.ext
  fin_cases c <;> rfl

/-- Rank 3: the reduced index `(p, r)` with the last coordinate `k` put back is `(p, r, k)`. -/
theorem lift_row3 {p a n : ℕ} (h : (⟨3, ![p, a, n]⟩ : Shape).Reduces [2] (⟨2, ![p, a]⟩ : Shape)) (b : Fin p) (r : Fin a)
    (k : Fin ((⟨3, ![p, a, n]⟩ : Shape).size 2)) : h.lift (ix2 b r) k = ix3 b r (⟨k.val, k.isLt⟩ : Fin n) := by
  funext c; apply Fin.ext
  fin_cases c <;> rfl

/-! ## The vector unit's reductions over the last axis of an `[a, n]` block -/

/-- The maximum over a row, from the accumulator's value. -/
theorem multiReduction_max_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = rowMax (Ideal.ofBits .f32 acc) fun k : Fin n => src (ix2 r k) := by
  rw [Ideal.multiReduction_maximumf_single]
  have hf : (src ∘ h.lift (ix1 r)) = fun k : Fin n => src (ix2 r k) :=
    funext fun k => congrArg src (lift_row2 h r k)
  exact congrArg (fun f => Finset.fold max (Ideal.ofBits .f32 acc) f (Finset.univ : Finset (Fin n))) hf

/-- The sum over a row. -/
theorem multiReduction_add_row {a n : ℕ} (src : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin n, src (ix2 r k) := by
  rw [Ideal.multiReduction_add_single]
  exact Finset.sum_congr rfl fun k _ => congrArg src (lift_row2 h r k)

/-! ## The host's maximum over the last axis of a `[p, a, n]` array -/

/-- The host's reduce with a maximum body over the last axis, at `(b, r)`: the row's maximum from the initial value. -/
theorem hostReduce_max_row {p a n : ℕ} {u : Shape} (x : (⟨3, ![p, a, n]⟩ : Shape).Idx → Ideal .f32) (init : u.Idx → Ideal .f32)
    (h' : (⟨3, ![p, a, n]⟩ : Shape).ReducesTo [2] (⟨2, ![p, a]⟩ : Shape))
    (h : (⟨3, ![p, a, n]⟩ : Shape).Reduces [2] (⟨2, ![p, a]⟩ : Shape)) (hu : 0 < u.numel) (b : Fin p) (r : Fin a) :
    Host.reduce FloatOps.maximumf x init h' hu (ix2 b r)
      = rowMax (init (Shape.Idx.first hu)) fun k : Fin n => x (ix3 b r k) := by
  rw [Host.reduce_eq_fold_single FloatOps.maximumf x init h' h hu]
  have hf : (x ∘ h.lift (ix2 b r)) = fun k : Fin n => x (ix3 b r k) :=
    funext fun k => congrArg x (lift_row3 h b r k)
  exact congrArg (fun f => Finset.fold max (init (Shape.Idx.first hu)) f (Finset.univ : Finset (Fin n))) hf

end Cert.LibSoftmaxRow

end
-- ==== Proof.Spec.lean ====
/-
  Masked scaled dot-product attention with a reweighted softmax, as ONE function of the argument arrays.

  For a batch `b`, a query row `r` and a key `c`: the score is the dot product of query row `r` with key row `c`
  times 1/8, replaced by a fill value where the mask is set; the attention entry is the softmax of the scores along
  the keys, times the weight at `(b, r, c)`; the output entry `(b, r, d)` is the sum over the keys of the attention
  entry times the value at `(b, c, d)`.

  Everything is stated per ROW: `scoreRow`, `attnRow` and `outRow` take the query row, the keys' rows, the mask
  row, the weight row and the values' rows as functions of the coordinates they are read at, so that a whole array
  and one block of it give the same row function from the same rows.

  The one law between the two programs: dividing by the f32 word of 8 is multiplying by the f32 word of 1/8, on every
  extended real (both words are exact).
-/
import proofs.«145765_j38525856645257_2_alg».proof.Proof.LibSoftmaxRow

noncomputable section

namespace Cert.Attn

open Idealize.ShloMosaic Idealize.ShloMosaic.ValueIdx Cert.LibSoftmaxRow

/-- The value written over masked scores: the f32 word of −1e10, the same word in both programs. -/
def fill : EReal := Ideal.ofBits .f32 0xD01502F9#32

/-- The value both row maxima start from: the f32 word of −∞. -/
def negInf : EReal := Ideal.ofBits .f32 0xFF800000#32

/-- The scale of the scores: the f32 word of 0.125. -/
def eighth : EReal := Ideal.ofBits .f32 0x3E000000#32

/-- The word of 0.125 denotes the real 1/8. -/
theorem eighth_eq : eighth = ((1 / 8 : ℝ) : EReal) := by
  unfold eighth
  simp [Ideal.ofBits, Ideal.ieee, -EReal.coe_mul]; norm_num

/-- The word of 8.0 denotes the real 8. -/
theorem ofBits_eight : Ideal.ofBits .f32 0x41000000#32 = ((8 : ℝ) : EReal) := by
  simp [Ideal.ofBits, Ideal.ieee, -EReal.coe_mul]; norm_num

/-- A quotient by 8 is the product with 1/8, at the infinities too. -/
theorem div_eight (x : EReal) : Ideal.div x (Ideal.ofBits .f32 0x41000000#32) = x * eighth := by
  rw [ofBits_eight, eighth_eq]
  exact Ideal.div_coe (by norm_num) x

/-- A one-bit mask widened to 32 bits is not zero exactly where the bit is set. -/
theorem ne_zero_setWidth (b : BitVec 1) : IntOp.cmpi .ne (b.setWidth 32) 0#32 = b := by
  rcases BitVec.eq_zero_or_eq_one b with h | h <;> subst h <;> decide

/-! ## The row functions -/

/-- The masked, scaled scores of one query row against every key. -/
def scoreRow (qrow : Fin 64 → EReal) (krows : Fin 2048 → Fin 64 → EReal) (mrow : Fin 2048 → BitVec 1) (c : Fin 2048) : EReal :=
  Scalar.select (mrow c) fill ((∑ d : Fin 64, qrow d * krows c d) * eighth)

/-- The attention row: the softmax of the scores along the keys, reweighted entry by entry. -/
def attnRow (qrow : Fin 64 → EReal) (krows : Fin 2048 → Fin 64 → EReal) (mrow : Fin 2048 → BitVec 1)
    (ewrow : Fin 2048 → EReal) (c : Fin 2048) : EReal :=
  softmax negInf (scoreRow qrow krows mrow) c * ewrow c

/-- The output row: the attention row against the values' columns. -/
def outRow (qrow : Fin 64 → EReal) (krows : Fin 2048 → Fin 64 → EReal) (mrow : Fin 2048 → BitVec 1)
    (ewrow : Fin 2048 → EReal) (vrows : Fin 2048 → Fin 64 → EReal) (d : Fin 64) : EReal :=
  ∑ c : Fin 2048, attnRow qrow krows mrow ewrow c * vrows c d

/-- The attention row depends only on the rows it is given, entry by entry. -/
theorem attnRow_congr {qrow qrow' : Fin 64 → EReal} {krows krows' : Fin 2048 → Fin 64 → EReal} {mrow mrow' : Fin 2048 → BitVec 1}
    {ewrow ewrow' : Fin 2048 → EReal} {c c' : Fin 2048} (hq : ∀ d, qrow d = qrow' d) (hk : ∀ j d, krows j d = krows' j d)
    (hm : ∀ j, mrow j = mrow' j) (he : ∀ j, ewrow j = ewrow' j) (hc : c = c') :
    attnRow qrow krows mrow ewrow c = attnRow qrow' krows' mrow' ewrow' c' := by
  obtain rfl : qrow = qrow' := funext hq
  obtain rfl : krows = krows' := funext fun j => funext (hk j)
  obtain rfl : mrow = mrow' := funext hm
  obtain rfl : ewrow = ewrow' := funext he
  rw [hc]

/-- The output row likewise. -/
theorem outRow_congr {qrow qrow' : Fin 64 → EReal} {krows krows' : Fin 2048 → Fin 64 → EReal} {mrow mrow' : Fin 2048 → BitVec 1}
    {ewrow ewrow' : Fin 2048 → EReal} {vrows vrows' : Fin 2048 → Fin 64 → EReal} {d d' : Fin 64} (hq : ∀ d, qrow d = qrow' d)
    (hk : ∀ j d, krows j d = krows' j d) (hm : ∀ j, mrow j = mrow' j) (he : ∀ j, ewrow j = ewrow' j)
    (hv : ∀ j d, vrows j d = vrows' j d) (hd : d = d') :
    outRow qrow krows mrow ewrow vrows d = outRow qrow' krows' mrow' ewrow' vrows' d' := by
  obtain rfl : qrow = qrow' := funext hq
  obtain rfl : krows = krows' := funext fun j => funext (hk j)
  obtain rfl : mrow = mrow' := funext hm
  obtain rfl : ewrow = ewrow' := funext he
  obtain rfl : vrows = vrows' := funext fun j => funext (hv j)
  rw [hd]

/-! ## The two result arrays -/

abbrev SQ : Shape := ⟨3, ![16, 2048, 64]⟩
abbrev SA : Shape := ⟨3, ![16, 2048, 2048]⟩

/-- The attention entry at batch `b`, query `r`, key `c`. -/
def attnAt (q k : SQ.Idx → EReal) (ew : SA.Idx → EReal) (mask : SA.Idx → BitVec 1) (b : Fin 16) (r c : Fin 2048) : EReal :=
  attnRow (fun d => q (ix3 b r d)) (fun c' d => k (ix3 b c' d)) (fun c' => mask (ix3 b r c')) (fun c' => ew (ix3 b r c')) c

/-- The output entry at batch `b`, query `r`, feature `d`. -/
def outAt (q k v : SQ.Idx → EReal) (ew : SA.Idx → EReal) (mask : SA.Idx → BitVec 1) (b : Fin 16) (r : Fin 2048) (d : Fin 64) : EReal :=
  outRow (fun d' => q (ix3 b r d')) (fun c' d' => k (ix3 b c' d')) (fun c' => mask (ix3 b r c')) (fun c' => ew (ix3 b r c'))
    (fun c' d' => v (ix3 b c' d')) d

/-- The attention array. -/
def attnArr (q k : SQ.Idx → EReal) (ew : SA.Idx → EReal) (mask : SA.Idx → BitVec 1) : SA.Idx → EReal :=
  fun i => attnAt q k ew mask (i 0) (i 1) (i 2)

/-- The output array. -/
def outArr (q k v : SQ.Idx → EReal) (ew : SA.Idx → EReal) (mask : SA.Idx → BitVec 1) : SQ.Idx → EReal :=
  fun i => outAt q k v ew mask (i 0) (i 1) (i 2)

theorem attnArr_ix3 (q k : SQ.Idx → EReal) (ew : SA.Idx → EReal) (mask : SA.Idx → BitVec 1) (b : Fin 16) (r c : Fin 2048) :
    attnArr q k ew mask (ix3 b r c) = attnAt q k ew mask b r c := rfl

theorem outArr_ix3 (q k v : SQ.Idx → EReal) (ew : SA.Idx → EReal) (mask : SA.Idx → BitVec 1) (b : Fin 16) (r : Fin 2048) (d : Fin 64) :
    outArr q k v ew mask (ix3 b r d) = outAt q k v ew mask b r d := rfl

end Cert.Attn

end
-- ==== Proof.RefSide.lean ====
/-
  The reference program computes the attention array and the output array of Spec.lean.

  Stage by stage, at an index given by its coordinates: the masked scaled scores (the quotient by 8 is the product
  with 1/8); the row maximum (the maximum with −∞ in front of it changes nothing); the shifted exponentials; their
  sum along the keys (from zero); the reweighted quotient; and the product with the values.
-/
import proofs.«145765_j38525856645257_2_alg».proof.Proof.Gen.ReferenceIdeal.Read
import proofs.«145765_j38525856645257_2_alg».proof.Proof.Spec

noncomputable section

namespace Cert.Attn.Ref

open Idealize.ShloMosaic Idealize.ShloMosaic.ValueIdx Cert.LibSoftmaxRow Cert.Attn
open Cert.ReferenceIdeal Cert.ReferenceIdeal.Gen Cert.ReferenceIdeal.Read

variable (x0 x1 x2 : (⟨S16x2048x64, .f32⟩ : BufTy).Contents (Elt Ideal))
  (x3 : (⟨S16x2048x2048, .f32⟩ : BufTy).Contents (Elt Ideal)) (x4 : (⟨S16x2048x2048, .i1⟩ : BufTy).Contents (Elt Ideal))

/-- The row of masked scaled scores the reference computes at `(b, r)`. -/
abbrev srow (b : Fin 16) (r : Fin 2048) : Fin 2048 → EReal :=
  scoreRow (fun d => x0 (ix3 b r d)) (fun c' d => x1 (ix3 b c' d)) (fun c' => x4 (ix3 b r c'))

/-- The masked scaled score. -/
theorem ref_score (b : Fin 16) (r c : Fin 2048) :
    val_main_v3 (F := Ideal) x0 x1 x4 (ix3 b r c) = srow x0 x1 x4 b r c := by
  have el : ∀ k : Fin 64, lidx_main_v0 (ix3 b r c) k = ix3 b r k := fun k =>
    funext fun a => Fin.ext (by match a with | ⟨0, _⟩ => rfl | ⟨1, _⟩ => rfl | ⟨2, _⟩ => rfl)
  have er : ∀ k : Fin 64, ridx_main_v0 (ix3 b r c) k = ix3 b c k := fun k =>
    funext fun a => Fin.ext (by match a with | ⟨0, _⟩ => rfl | ⟨1, _⟩ => rfl | ⟨2, _⟩ => rfl)
  rw [val_main_v3_apply, val_main_call0_v1_apply, val_main_call0_v0_apply, val_main_cst_0_apply, val_main_v2_apply,
    val_main_v0_apply, val_main_v1_apply, val_main_cst_apply]
  simp only [el, er, Ideal.hostDivf_def, Ideal.ofBits_def, div_eight]
  rfl

/-- The row maximum. -/
theorem ref_max (b : Fin 16) (r : Fin 2048) :
    val_main_v6 (F := Ideal) x0 x1 x4 (ix2 b r) = rowMax negInf (srow x0 x1 x4 b r) := by
  rw [val_main_v6_apply, val_main_v5_apply, val_main_cst_2_apply]
  unfold val_main_v4
  rw [hostReduce_max_row (val_main_v3 (F := Ideal) x0 x1 x4) (val_main_cst_1 (F := Ideal))
    reducesTo_S16x2048x2048_S16x2048_d2 (by decide) h_S_ b r]
  rw [val_main_cst_1_apply]
  simp only [Ideal.maximumf_def, Ideal.ofBits_def, max_negInf]
  unfold negInf
  exact congrArg (rowMax (Ideal.ofBits .f32 0xFF800000#32)) (funext fun k => ref_score x0 x1 x4 b r k)

/-- The shifted exponential. -/
theorem ref_exp (b : Fin 16) (r c : Fin 2048) :
    val_main_v10 (F := Ideal) x0 x1 x4 (ix3 b r c) = expShift negInf (srow x0 x1 x4 b r) c := by
  have e8 : idx_main_v8 (ix3 b r c) = ix3 b r (0 : Fin 1) :=
    funext fun a => Fin.ext (by match a with | ⟨0, _⟩ => rfl | ⟨1, _⟩ => rfl | ⟨2, _⟩ => rfl)
  have e7 : idx_main_v7 (ix3 b r (0 : Fin 1)) = ix2 b r :=
    funext fun a => Fin.ext (by match a with | ⟨0, _⟩ => rfl | ⟨1, _⟩ => rfl)
  rw [val_main_v10_apply, val_main_v9_apply, val_main_v8_apply, e8, val_main_v7_apply, e7, ref_max, ref_score]
  rfl

/-- The sum of the shifted exponentials along the keys. -/
theorem ref_sum (b : Fin 16) (r : Fin 2048) :
    val_main_v11 (F := Ideal) x0 x1 x4 (ix2 b r) = ∑ k : Fin 2048, expShift negInf (srow x0 x1 x4 b r) k := by
  have e : ∀ k : Fin 2048, idx_main_v11 (ix2 b r) k = ix3 b r k := fun k =>
    funext fun a => Fin.ext (by match a with | ⟨0, _⟩ => rfl | ⟨1, _⟩ => rfl | ⟨2, _⟩ => rfl)
  rw [val_main_v11_apply, val_main_cst_3_apply]
  simp only [e, ref_exp, Ideal.ofBits_def, Ideal.ofBits_zero_f32, zero_add]

/-- The attention entry. -/
theorem ref_attn_at (b : Fin 16) (r c : Fin 2048) :
    val_main_v15 (F := Ideal) x0 x1 x3 x4 (ix3 b r c) = attnAt x0 x1 x3 x4 b r c := by
  have e13 : idx_main_v13 (ix3 b r c) = ix3 b r (0 : Fin 1) :=
    funext fun a => Fin.ext (by match a with | ⟨0, _⟩ => rfl | ⟨1, _⟩ => rfl | ⟨2, _⟩ => rfl)
  have e12 : idx_main_v12 (ix3 b r (0 : Fin 1)) = ix2 b r :=
    funext fun a => Fin.ext (by match a with | ⟨0, _⟩ => rfl | ⟨1, _⟩ => rfl)
  rw [val_main_v15_apply, val_main_v14_apply, val_main_v13_apply, e13, val_main_v12_apply, e12, ref_sum, ref_exp]
  rfl

/-- The reference's second result is the attention array. -/
theorem ref_attn : val_main_v15 (F := Ideal) x0 x1 x3 x4 = attnArr x0 x1 x3 x4 := by
  funext i
  obtain ⟨b, r, c, rfl⟩ : ∃ (b : Fin 16) (r c : Fin 2048), i = ix3 b r c := ⟨i 0, i 1, i 2, eq_ix3 i⟩
  exact ref_attn_at x0 x1 x3 x4 b r c

/-- The reference's first result is the output array. -/
theorem ref_out : val_main_v16 (F := Ideal) x0 x1 x2 x3 x4 = outArr x0 x1 x2 x3 x4 := by
  funext i
  obtain ⟨b, r, d, rfl⟩ : ∃ (b : Fin 16) (r : Fin 2048) (d : Fin 64), i = ix3 b r d := ⟨i 0, i 1, i 2, eq_ix3 i⟩
  have el : ∀ k : Fin 2048, lidx_main_v16 (ix3 b r d) k = ix3 b r k := fun k =>
    funext fun a => Fin.ext (by match a with | ⟨0, _⟩ => rfl | ⟨1, _⟩ => rfl | ⟨2, _⟩ => rfl)
  have er : ∀ k : Fin 2048, ridx_main_v16 (ix3 b r d) k = ix3 b k d := fun k =>
    funext fun a => Fin.ext (by match a with | ⟨0, _⟩ => rfl | ⟨1, _⟩ => rfl | ⟨2, _⟩ => rfl)
  rw [val_main_v16_apply]
  simp only [el, er, ref_attn_at]
  rfl

end Cert.Attn.Ref

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KernelRow.lean ====
/-
  The kernel body's arithmetic on one grid point's blocks is the row functions of Spec.lean.

  The body holds a block of 512 query rows, the batch's 2048 key rows and value rows, and the 512 × 2048 blocks of the
  weights and of the mask (widened to 32-bit words). Entry (r, c) of what it stores as attention is the attention row
  of query row r at key c; entry (r, d) of what it stores as output is the output row of query row r at feature d.
  The softmax runs along a whole row of the block, which holds every key, so the row's maximum and sum are the
  whole-array ones.
-/
import proofs.«145765_j38525856645257_2_alg».proof.Proof.Gen.KernelIdeal.Skeleton
import proofs.«145765_j38525856645257_2_alg».proof.Proof.Gen.KernelIdeal
import proofs.«145765_j38525856645257_2_alg».proof.Proof.Spec
import proofs.«145765_j38525856645257_2_alg».proof.Proof.LibDotNT
import proofs.«145765_j38525856645257_2_alg».proof.Proof.LibDense
import Idealize.ShloMosaic.Lib.ValueLayout

noncomputable section

namespace Cert.Attn.Kern

open Idealize.ShloMosaic Idealize.ShloMosaic.ValueIdx Cert.LibSoftmaxRow Cert.Attn
open Cert.KernelIdeal Cert.KernelIdeal.Gen

variable (P0 : FVec Ideal S1x512x64 .f32) (P1 : FVec Ideal S1x2048x64 .f32) (P2 : IVec S1x512x2048 32)
  (P3 : FVec Ideal S1x512x2048 .f32) (P4 : FVec Ideal S1x2048x64 .f32)

/-- The row of masked scaled scores of the block's query row `r`. -/
abbrev brow (r : Fin 512) : Fin 2048 → EReal :=
  scoreRow (fun d => P0 (ix3 (0 : Fin 1) r d)) (fun c' d => P1 (ix3 (0 : Fin 1) c' d))
    (fun c' => IntOp.cmpi .ne (P2 (ix3 (0 : Fin 1) r c')) 0#32)

/-! ## The body's stages as vectors -/

/-- The masked scaled scores of the block. -/
def scoresB : FVec Ideal S512x2048 .f32 :=
  select (cmpi .ne (shapeCast S512x2048 P2 shapeCasts_S1x512x2048_S512x2048) (constantI S512x2048 32 0#32))
    (broadcast S512x2048 (Scalar.ofBits (F := Ideal) .f32 0xD01502F9#32))
    (mulf (matmul dot_S512x64_S2048x64_S512x2048_1_1_0_0_n_n (some .fp32) (shapeCast S512x64 P0 shapeCasts_S1x512x64_S512x64)
        (shapeCast S2048x64 P1 shapeCasts_S1x2048x64_S2048x64) (constant S512x2048 .f32 0x00000000#32))
      (broadcast S512x2048 (Scalar.ofBits (F := Ideal) .f32 0x3E000000#32)))

/-- The shifted exponentials of the block. -/
def expB : FVec Ideal S512x2048 .f32 :=
  exp (subf (scoresB P0 P1 P2)
    (broadcastTo S512x2048 (shapeCast S512x1 (multiReduction .maximumf [1] S512 (scoresB P0 P1 P2) 0xFF800000#32
      reduces_S512x2048_S512 (.inl rfl) rfl) shapeCasts_S512_S512x1) broadcasts_S512x1_S512x2048))

/-- The attention payload, stage by stage. -/
theorem pay2_eq : k0_pay2 (F := Ideal) P0 P1 P2 P3
    = mulf (divf (expB P0 P1 P2)
        (broadcastTo S512x2048 (shapeCast S512x1 (multiReduction .add [1] S512 (expB P0 P1 P2) 0x00000000#32
          reduces_S512x2048_S512 (.inl rfl) rfl) shapeCasts_S512_S512x1) broadcasts_S512x1_S512x2048))
      (shapeCast S512x2048 P3 shapeCasts_S1x512x2048_S512x2048) := rfl

/-- The output payload: the attention payload against the values. -/
theorem pay4_eq : k0_pay4 (F := Ideal) P0 P1 P4 P2 P3
    = matmul dot_S512x2048_S2048x64_S512x64_1_0_0_1_n_n (some .fp32) (k0_pay2 (F := Ideal) P0 P1 P2 P3)
        (shapeCast S2048x64 P4 shapeCasts_S1x2048x64_S2048x64) (constant S512x64 .f32 0x00000000#32) := rfl

/-! ## Each stage at an index -/

/-- The block's scores at (r, c). -/
theorem scoresB_apply (r : Fin 512) (c : Fin 2048) : scoresB P0 P1 P2 (ix2 r c) = brow P0 P1 P2 r c := by
  show Scalar.select (IntOp.cmpi .ne (shapeCast S512x2048 P2 shapeCasts_S1x512x2048_S512x2048 (ix2 r c)) 0#32)
      (Ideal.ofBits .f32 0xD01502F9#32)
      (FloatOps.matmul dot_S512x64_S2048x64_S512x2048_1_1_0_0_n_n (some .fp32) (shapeCast S512x64 P0 shapeCasts_S1x512x64_S512x64)
        (shapeCast S2048x64 P1 shapeCasts_S1x2048x64_S2048x64) (constant S512x2048 .f32 0x00000000#32) (ix2 r c)
        * Ideal.ofBits .f32 0x3E000000#32) = _
  rw [shapeCast_1ab_ab_apply P2 shapeCasts_S1x512x2048_S512x2048 r c]
  rw [(Ideal.matmul_constant_zero_apply dot_S512x64_S2048x64_S512x2048_1_1_0_0_n_n (some .fp32)
      (shapeCast S512x64 P0 shapeCasts_S1x512x64_S512x64) (shapeCast S2048x64 P1 shapeCasts_S1x2048x64_S2048x64) (ix2 r c)).trans
    (Cert.LibDotNT.tr_sum 512 64 2048 (shapeCast S512x64 P0 shapeCasts_S1x512x64_S512x64)
      (shapeCast S2048x64 P1 shapeCasts_S1x2048x64_S2048x64) (ix2 r c))]
  rw [Cert.LibDotNT.rowDot_ix2]
  unfold brow scoreRow
  refine congrArg (fun z => Scalar.select _ _ (z * _)) (Finset.sum_congr rfl fun k _ => ?_)
  rw [shapeCast_1ab_ab_apply P0 shapeCasts_S1x512x64_S512x64 r k, shapeCast_1ab_ab_apply P1 shapeCasts_S1x2048x64_S2048x64 c k]

/-- A row reduction kept as a column and spread back over the row, at (r, c), is the reduction's entry of row r. -/
theorem column_apply (v : FVec Ideal S512 .f32) (r : Fin 512) (c : Fin 2048) :
    broadcastTo S512x2048 (shapeCast S512x1 v shapeCasts_S512_S512x1) broadcasts_S512x1_S512x2048 (ix2 r c) = v (ix1 r) :=
  (broadcastTo_a1_ab_apply (shapeCast S512x1 v shapeCasts_S512_S512x1) broadcasts_S512x1_S512x2048 r c).trans
    (shapeCast_a_a1_apply v shapeCasts_S512_S512x1 r (0 : Fin 1))

/-- The block's row maxima. -/
theorem maxB_apply (r : Fin 512) :
    multiReduction .maximumf [1] S512 (scoresB P0 P1 P2) 0xFF800000#32 reduces_S512x2048_S512 (.inl rfl) rfl (ix1 r)
      = rowMax negInf (brow P0 P1 P2 r) :=
  (multiReduction_max_row (scoresB P0 P1 P2) 0xFF800000#32 reduces_S512x2048_S512 (.inl rfl) rfl r).trans
    (congrArg (rowMax negInf) (funext fun k => scoresB_apply P0 P1 P2 r k))

/-- The block's shifted exponentials at (r, c). -/
theorem expB_apply (r : Fin 512) (c : Fin 2048) : expB P0 P1 P2 (ix2 r c) = expShift negInf (brow P0 P1 P2 r) c := by
  show Ideal.exp (scoresB P0 P1 P2 (ix2 r c)
      - broadcastTo S512x2048 (shapeCast S512x1 (multiReduction .maximumf [1] S512 (scoresB P0 P1 P2) 0xFF800000#32
          reduces_S512x2048_S512 (.inl rfl) rfl) shapeCasts_S512_S512x1) broadcasts_S512x1_S512x2048 (ix2 r c)) = _
  rw [column_apply, maxB_apply, scoresB_apply]
  rfl

/-- The block's row sums of shifted exponentials. -/
theorem sumB_apply (r : Fin 512) :
    multiReduction .add [1] S512 (expB P0 P1 P2) 0x00000000#32 reduces_S512x2048_S512 (.inl rfl) rfl (ix1 r)
      = ∑ k : Fin 2048, expShift negInf (brow P0 P1 P2 r) k :=
  (multiReduction_add_row (expB P0 P1 P2) 0x00000000#32 reduces_S512x2048_S512 (.inl rfl) rfl r).trans
    (Finset.sum_congr rfl fun k _ => expB_apply P0 P1 P2 r k)

/-- The attention payload at (r, c) is the attention row of the block's query row r, at key c. -/
theorem pay2_apply (r : Fin 512) (c : Fin 2048) :
    k0_pay2 (F := Ideal) P0 P1 P2 P3 (ix2 r c)
      = attnRow (fun d => P0 (ix3 (0 : Fin 1) r d)) (fun c' d => P1 (ix3 (0 : Fin 1) c' d))
          (fun c' => IntOp.cmpi .ne (P2 (ix3 (0 : Fin 1) r c')) 0#32) (fun c' => P3 (ix3 (0 : Fin 1) r c')) c := by
  rw [pay2_eq]
  show Ideal.div (expB P0 P1 P2 (ix2 r c))
      (broadcastTo S512x2048 (shapeCast S512x1 (multiReduction .add [1] S512 (expB P0 P1 P2) 0x00000000#32
          reduces_S512x2048_S512 (.inl rfl) rfl) shapeCasts_S512_S512x1) broadcasts_S512x1_S512x2048 (ix2 r c))
      * shapeCast S512x2048 P3 shapeCasts_S1x512x2048_S512x2048 (ix2 r c) = _
  rw [column_apply, sumB_apply, expB_apply, shapeCast_1ab_ab_apply P3 shapeCasts_S1x512x2048_S512x2048 r c]
  rfl

/-- The output payload at (r, d) is the output row of the block's query row r, at feature d. -/
theorem pay4_apply (r : Fin 512) (d : Fin 64) :
    k0_pay4 (F := Ideal) P0 P1 P4 P2 P3 (ix2 r d)
      = outRow (fun d' => P0 (ix3 (0 : Fin 1) r d')) (fun c' d' => P1 (ix3 (0 : Fin 1) c' d'))
          (fun c' => IntOp.cmpi .ne (P2 (ix3 (0 : Fin 1) r c')) 0#32) (fun c' => P3 (ix3 (0 : Fin 1) r c'))
          (fun c' d' => P4 (ix3 (0 : Fin 1) c' d')) d := by
  rw [pay4_eq]
  refine ((Ideal.matmul_constant_zero_apply dot_S512x2048_S2048x64_S512x64_1_0_0_1_n_n (some .fp32)
      (k0_pay2 (F := Ideal) P0 P1 P2 P3) (shapeCast S2048x64 P4 shapeCasts_S1x2048x64_S2048x64) (ix2 r d)).trans
    (Cert.LibDense.plain_sum 512 2048 64 (k0_pay2 (F := Ideal) P0 P1 P2 P3) (shapeCast S2048x64 P4 shapeCasts_S1x2048x64_S2048x64) (ix2 r d))).trans ?_
  unfold Cert.LibDense.prod outRow
  refine Finset.sum_congr rfl fun k _ => ?_
  show k0_pay2 (F := Ideal) P0 P1 P2 P3 (ix2 r k) * shapeCast S2048x64 P4 shapeCasts_S1x2048x64_S2048x64 (ix2 k d) = _
  rw [pay2_apply, shapeCast_1ab_ab_apply P4 shapeCasts_S1x2048x64_S2048x64 k d]

end Cert.Attn.Kern

end
-- ==== Proof.KernelBlocks.lean ====
/-
  From the blocks the grid points write back to the two whole result arrays of the kernel.

  Grid point (b, i) holds query rows 512·i … 512·i + 511 of batch b, every key row and value row of batch b, and the
  same 512 rows of the weights and of the mask; it writes back rows 512·i … 512·i + 511 of batch b of both results.
  A block element's array coordinate is the block's index times the block's size plus the coordinate inside the block,
  on every axis. So what a point writes back is its block of the attention array (of the output array) of Spec.lean —
  the rows of the arguments a row function reads are the same rows, read through the blocks —, and the 16 × 4 blocks
  cover each array: row q of batch b lies in the block of point (b, q / 512).

  The mask reaches the kernel widened to 32-bit words by a host operation before the launch; comparing a widened bit
  with zero gives the bit back.
-/
import proofs.«145765_j38525856645257_2_alg».proof.Proof.Gen.KernelIdeal.Value
import proofs.«145765_j38525856645257_2_alg».proof.Proof.KernelRow
import Idealize.ShloMosaic.Lib.StableHlo.Run

noncomputable section

namespace Cert.Attn.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Attn

variable (m : (ℓ : Loc nD τ sig) → Buf (Elt Ideal) ℓ) (ρ : Dev nD → PrngReg)

theorem hz : (![0, 0, 0] : Fin 3 → Nat) = fun _ => 0 := funext fun a => by fin_cases a <;> rfl

/-! ## The body's two results on a point's blocks, at an index -/

/-- What the body leaves in the attention window's buffer, at (r, c): the attention row of the block's query row r. -/
theorem attnBuf_apply (x0 : Vec Ideal S1x512x64 .f32) (x1 x2 : Vec Ideal S1x2048x64 .f32) (x3 : Vec Ideal S1x512x2048 .f32)
    (x4 : Vec Ideal S1x512x2048 .i32) (u : Fin 1) (r : Fin 512) (cc : Fin 2048) :
    out0_6 x0 x1 x2 x3 x4 (ix3 u r cc)
      = attnRow (fun d => x0 (ix3 (0 : Fin 1) r d)) (fun c' d => x1 (ix3 (0 : Fin 1) c' d))
          (fun c' => IntOp.cmpi .ne (x4 (ix3 (0 : Fin 1) r c')) 0#32) (fun c' => x3 (ix3 (0 : Fin 1) r c')) cc := by
  unfold out0_6
  rw [Value.canon6_eq]
  simp only [View.ld_unit_zero (S := S1x512x64) hz, View.ld_unit_zero (S := S1x2048x64) hz, View.ld_unit_zero (S := S1x512x2048) hz]
  show k0_pay2 (F := Ideal) x0 x1 x4 x3 (Value.ix6_0 (ix3 u r cc)) = _
  have e : Value.ix6_0 (ix3 u r cc) = ix2 r cc :=
    funext fun a => Fin.ext (by match a with | ⟨0, _⟩ => rfl | ⟨1, _⟩ => rfl)
  rw [e]
  exact Kern.pay2_apply x0 x1 x4 x3 r cc

/-- What the body leaves in the output window's buffer, at (r, d): the output row of the block's query row r. -/
theorem outBuf_apply (x0 : Vec Ideal S1x512x64 .f32) (x1 x2 : Vec Ideal S1x2048x64 .f32) (x3 : Vec Ideal S1x512x2048 .f32)
    (x4 : Vec Ideal S1x512x2048 .i32) (u : Fin 1) (r : Fin 512) (d : Fin 64) :
    out0_5 x0 x1 x2 x3 x4 (ix3 u r d)
      = outRow (fun d' => x0 (ix3 (0 : Fin 1) r d')) (fun c' d' => x1 (ix3 (0 : Fin 1) c' d'))
          (fun c' => IntOp.cmpi .ne (x4 (ix3 (0 : Fin 1) r c')) 0#32) (fun c' => x3 (ix3 (0 : Fin 1) r c'))
          (fun c' d' => x2 (ix3 (0 : Fin 1) c' d')) d := by
  unfold out0_5
  rw [Value.canon5_eq]
  simp only [View.ld_unit_zero (S := S1x512x64) hz, View.ld_unit_zero (S := S1x2048x64) hz, View.ld_unit_zero (S := S1x512x2048) hz]
  show k0_pay4 (F := Ideal) x0 x1 x2 x4 x3 (Value.ix5_0 (ix3 u r d)) = _
  have e : Value.ix5_0 (ix3 u r d) = ix2 r d :=
    funext fun a => Fin.ext (by match a with | ⟨0, _⟩ => rfl | ⟨1, _⟩ => rfl)
  rw [e]
  exact Kern.pay4_apply x0 x1 x4 x3 x2 r d

/-! ## The printed index maps over the grid -/

/-- Every window's block index at a point, against the attention window's: the queries, the weights, the mask and the
    output move with it; the keys and the values keep the batch only; the last axis is never cut. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = win0_6.index t (1 : Fin 3) ∧ win0_5.index t (2 : Fin 3) = 0
    ∧ win0_6.index t (2 : Fin 3) = 0 :=
  (by decide +kernel : ∀ t : Fin grid0.N, _)

/-- Every (batch, row block) is some point's, for the attention window. -/
theorem idx_onto6 : ∀ (q0 : Fin 16) (q1 : Fin 4), ∃ t : Fin cfg0.N, win0_6.index t = ![q0.val, q1.val, 0] :=
  (by decide +kernel : ∀ (q0 : Fin 16) (q1 : Fin 4), ∃ t : Fin grid0.N, win0_6.index t = ![q0.val, q1.val, 0])

/-- Every (batch, row block) is some point's, for the output window. -/
theorem idx_onto5 : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## An input block's element is the array's element at block index × block size + the coordinate inside -/

theorem qblk_at (c : Dev nD) (t : Fin cfg0.N) (x : S1x512x64.Idx) (k : S16x2048x64.Idx)
    (h0 : (k 0).val = win0_0.index t (0 : Fin 3) * 1 + 1 * (x 0).val) (h1 : (k 1).val = win0_0.index t (1 : Fin 3) * 512 + 1 * (x 1).val)
    (h2 : (k 2).val = win0_0.index t (2 : Fin 3) * 64 + 1 * (x 2).val) :
    (iblk m c 0 t : Vec Ideal S1x512x64 .f32) x = (V m c main_arg0 : S16x2048x64.Idx → EReal) k := by
  unfold iblk
  rw [View.read_apply]
  show (V m c main_arg0 : S16x2048x64.Idx → EReal) _ = _
  refine congrArg _ (funext fun a => Fin.ext ?_)
  match a with
  | ⟨0, _⟩ => exact h0.symm
  | ⟨1, _⟩ => exact h1.symm
  | ⟨2, _⟩ => exact h2.symm

theorem kblk_at (c : Dev nD) (t : Fin cfg0.N) (x : S1x2048x64.Idx) (k : S16x2048x64.Idx)
    (h0 : (k 0).val = win0_1.index t (0 : Fin 3) * 1 + 1 * (x 0).val) (h1 : (k 1).val = win0_1.index t (1 : Fin 3) * 2048 + 1 * (x 1).val)
    (h2 : (k 2).val = win0_1.index t (2 : Fin 3) * 64 + 1 * (x 2).val) :
    (iblk m c 1 t : Vec Ideal S1x2048x64 .f32) x = (V m c main_arg1 : S16x2048x64.Idx → EReal) k := by
  unfold iblk
  rw [View.read_apply]
  show (V m c main_arg1 : S16x2048x64.Idx → EReal) _ = _
  refine congrArg _ (funext fun a => Fin.ext ?_)
  match a with
  | ⟨0, _⟩ => exact h0.symm
  | ⟨1, _⟩ => exact h1.symm
  | ⟨2, _⟩ => exact h2.symm

theorem vblk_at (c : Dev nD) (t : Fin cfg0.N) (x : S1x2048x64.Idx) (k : S16x2048x64.Idx)
    (h0 : (k 0).val = win0_2.index t (0 : Fin 3) * 1 + 1 * (x 0).val) (h1 : (k 1).val = win0_2.index t (1 : Fin 3) * 2048 + 1 * (x 1).val)
    (h2 : (k 2).val = win0_2.index t (2 : Fin 3) * 64 + 1 * (x 2).val) :
    (iblk m c 2 t : Vec Ideal S1x2048x64 .f32) x = (V m c main_arg2 : S16x2048x64.Idx → EReal) k := by
  unfold iblk
  rw [View.read_apply]
  show (V m c main_arg2 : S16x2048x64.Idx → EReal) _ = _
  refine congrArg _ (funext fun a => Fin.ext ?_)
  match a with
  | ⟨0, _⟩ => exact h0.symm
  | ⟨1, _⟩ => exact h1.symm
  | ⟨2, _⟩ => exact h2.symm

theorem wblk_at (c : Dev nD) (t : Fin cfg0.N) (x : S1x512x2048.Idx) (k : S16x2048x2048.Idx)
    (h0 : (k 0).val = win0_3.index t (0 : Fin 3) * 1 + 1 * (x 0).val) (h1 : (k 1).val = win0_3.index t (1 : Fin 3) * 512 + 1 * (x 1).val)
    (h2 : (k 2).val = win0_3.index t (2 : Fin 3) * 2048 + 1 * (x 2).val) :
    (iblk m c 3 t : Vec Ideal S1x512x2048 .f32) x = (V m c main_arg3 : S16x2048x2048.Idx → EReal) k := by
  unfold iblk
  rw [View.read_apply]
  show (V m c main_arg3 : S16x2048x2048.Idx → EReal) _ = _
  refine congrArg _ (funext fun a => Fin.ext ?_)
  match a with
  | ⟨0, _⟩ => exact h0.symm
  | ⟨1, _⟩ => exact h1.symm
  | ⟨2, _⟩ => exact h2.symm

theorem mblk_at (c : Dev nD) (t : Fin cfg0.N) (x : S1x512x2048.Idx) (k : S16x2048x2048.Idx)
    (h0 : (k 0).val = win0_4.index t (0 : Fin 3) * 1 + 1 * (x 0).val) (h1 : (k 1).val = win0_4.index t (1 : Fin 3) * 512 + 1 * (x 1).val)
    (h2 : (k 2).val = win0_4.index t (2 : Fin 3) * 2048 + 1 * (x 2).val) :
    (iblk m c 4 t : Vec Ideal S1x512x2048 .i32) x = (V m c main_v0 : S16x2048x2048.Idx → BitVec 32) k := by
  unfold iblk
  rw [View.read_apply]
  show (V m c main_v0 : S16x2048x2048.Idx → BitVec 32) _ = _
  refine congrArg _ (funext fun a => Fin.ext ?_)
  match a with
  | ⟨0, _⟩ => exact h0.symm
  | ⟨1, _⟩ => exact h1.symm
  | ⟨2, _⟩ => exact h2.symm

/-! ## What a point writes back is its block of the result arrays -/

/-- The mask bits as the region finds them: the widened words compared with zero. -/
def maskW (c : Dev nD) : S16x2048x2048.Idx → BitVec 1 :=
  fun i => IntOp.cmpi .ne ((V m c main_v0 : S16x2048x2048.Idx → BitVec 32) i) 0#32

/-- The attention window's buffer after the body at point t, at a block index, is the attention array at the array index
    the block index sits at. -/
theorem attn_block_eq (c : Dev nD) (t : Fin cfg0.N) (y : S1x512x2048.Idx) (e : S16x2048x2048.Idx)
    (h0 : (e 0).val = win0_6.index t (0 : Fin 3) * 1 + 1 * (y 0).val) (h1 : (e 1).val = win0_6.index t (1 : Fin 3) * 512 + 1 * (y 1).val)
    (h2 : (e 2).val = win0_6.index t (2 : Fin 3) * 2048 + 1 * (y 2).val) :
    out0_6 (iblk m c 0 t) (iblk m c 1 t) (iblk m c 2 t) (iblk m c 3 t) (iblk m c 4 t) y
      = attnArr (V m c main_arg0) (V m c main_arg1) (V m c main_arg3) (maskW m c) e := by
  obtain ⟨u, r, cc, rfl⟩ : ∃ (u : Fin 1) (r : Fin 512) (cc : Fin 2048), y = ix3 u r cc := ⟨y 0, y 1, y 2, eq_ix3 y⟩
  obtain ⟨b, q, kk, rfl⟩ : ∃ (b : Fin 16) (q kk : Fin 2048), e = ix3 b q kk := ⟨e 0, e 1, e 2, eq_ix3 e⟩
  have hb : b.val = win0_6.index t (0 : Fin 3) * 1 + 1 * u.val := h0
  have hq : q.val = win0_6.index t (1 : Fin 3) * 512 + 1 * r.val := h1
  have hk : kk.val = win0_6.index t (2 : Fin 3) * 2048 + 1 * cc.val := h2
  obtain ⟨f00, f01, f02, f10, f11, f12, f20, f21, f22, f30, f31, f32, f40, f41, f42, f50, f51, f52, f62⟩ := idx_facts t
  have hu : u.val = 0 := by omega
  refine (attnBuf_apply (iblk m c 0 t) (iblk m c 1 t) (iblk m c 2 t) (iblk m c 3 t) (iblk m c 4 t) u r cc).trans ?_
  rw [attnArr_ix3]
  unfold attnAt
  refine attnRow_congr (fun d => ?_) (fun j d => ?_) (fun j => ?_) (fun j => ?_) (Fin.ext (by omega))
  · exact qblk_at m c t (ix3 (0 : Fin 1) r d) (ix3 b q d) (by show b.val = _ * 1 + 1 * 0; omega)
      (by show q.val = _ * 512 + 1 * r.val; omega) (by show d.val = _ * 64 + 1 * d.val; omega)
  · exact kblk_at m c t (ix3 (0 : Fin 1) j d) (ix3 b j d) (by show b.val = _ * 1 + 1 * 0; omega)
      (by show j.val = _ * 2048 + 1 * j.val; omega) (by show d.val = _ * 64 + 1 * d.val; omega)
  · exact congrArg (fun w => IntOp.cmpi .ne w 0#32) (mblk_at m c t (ix3 (0 : Fin 1) r j) (ix3 b q j)
      (by show b.val = _ * 1 + 1 * 0; omega) (by show q.val = _ * 512 + 1 * r.val; omega) (by show j.val = _ * 2048 + 1 * j.val; omega))
  · exact wblk_at m c t (ix3 (0 : Fin 1) r j) (ix3 b q j) (by show b.val = _ * 1 + 1 * 0; omega)
      (by show q.val = _ * 512 + 1 * r.val; omega) (by show j.val = _ * 2048 + 1 * j.val; omega)

/-- The output window's buffer after the body at point t, at a block index, is the output array at the array index the
    block index sits at. -/
theorem out_block_eq (c : Dev nD) (t : Fin cfg0.N) (y : S1x512x64.Idx) (e : S16x2048x64.Idx)
    (h0 : (e 0).val = win0_5.index t (0 : Fin 3) * 1 + 1 * (y 0).val) (h1 : (e 1).val = win0_5.index t (1 : Fin 3) * 512 + 1 * (y 1).val)
    (h2 : (e 2).val = win0_5.index t (2 : Fin 3) * 64 + 1 * (y 2).val) :
    out0_5 (iblk m c 0 t) (iblk m c 1 t) (iblk m c 2 t) (iblk m c 3 t) (iblk m c 4 t) y
      = outArr (V m c main_arg0) (V m c main_arg1) (V m c main_arg2) (V m c main_arg3) (maskW m c) e := by
  obtain ⟨u, r, dd, rfl⟩ : ∃ (u : Fin 1) (r : Fin 512) (dd : Fin 64), y = ix3 u r dd := ⟨y 0, y 1, y 2, eq_ix3 y⟩
  obtain ⟨b, q, kk, rfl⟩ : ∃ (b : Fin 16) (q : Fin 2048) (kk : Fin 64), e = ix3 b q kk := ⟨e 0, e 1, e 2, eq_ix3 e⟩
  have hb : b.val = win0_5.index t (0 : Fin 3) * 1 + 1 * u.val := h0
  have hq : q.val = win0_5.index t (1 : Fin 3) * 512 + 1 * r.val := h1
  have hk : kk.val = win0_5.index t (2 : Fin 3) * 64 + 1 * dd.val := h2
  obtain ⟨f00, f01, f02, f10, f11, f12, f20, f21, f22, f30, f31, f32, f40, f41, f42, f50, f51, f52, f62⟩ := idx_facts t
  have hu : u.val = 0 := by omega
  refine (outBuf_apply (iblk m c 0 t) (iblk m c 1 t) (iblk m c 2 t) (iblk m c 3 t) (iblk m c 4 t) u r dd).trans ?_
  rw [outArr_ix3]
  unfold outAt
  refine outRow_congr (fun d => ?_) (fun j d => ?_) (fun j => ?_) (fun j => ?_) (fun j d => ?_) (Fin.ext (by omega))
  · exact qblk_at m c t (ix3 (0 : Fin 1) r d) (ix3 b q d) (by show b.val = _ * 1 + 1 * 0; omega)
      (by show q.val = _ * 512 + 1 * r.val; omega) (by show d.val = _ * 64 + 1 * d.val; omega)
  · exact kblk_at m c t (ix3 (0 : Fin 1) j d) (ix3 b j d) (by show b.val = _ * 1 + 1 * 0; omega)
      (by show j.val = _ * 2048 + 1 * j.val; omega) (by show d.val = _ * 64 + 1 * d.val; omega)
  · exact congrArg (fun w => IntOp.cmpi .ne w 0#32) (mblk_at m c t (ix3 (0 : Fin 1) r j) (ix3 b q j)
      (by show b.val = _ * 1 + 1 * 0; omega) (by show q.val = _ * 512 + 1 * r.val; omega) (by show j.val = _ * 2048 + 1 * j.val; omega))
  · exact wblk_at m c t (ix3 (0 : Fin 1) r j) (ix3 b q j) (by show b.val = _ * 1 + 1 * 0; omega)
      (by show q.val = _ * 512 + 1 * r.val; omega) (by show j.val = _ * 2048 + 1 * j.val; omega)
  · exact vblk_at m c t (ix3 (0 : Fin 1) j d) (ix3 b j d) (by show b.val = _ * 1 + 1 * 0; omega)
      (by show j.val = _ * 2048 + 1 * j.val; omega) (by show d.val = _ * 64 + 1 * d.val; omega)

/-- What point t writes back to the attention array is its block of the attention array. -/
theorem flushed_attn (c : Dev nD) (t : Fin cfg0.N) :
    (dats m 0 c).flushed 6 t
      = ((cfg0.win 6).blk t).view.read (Elt Ideal) (attnArr (V m c main_arg0) (V m c main_arg1) (V m c main_arg3) (maskW m c)) := by
  rw [Value.flushed6]
  funext y
  exact attn_block_eq m c t y _ rfl rfl rfl

/-- What point t writes back to the output array is its block of the output array. -/
theorem flushed_out (c : Dev nD) (t : Fin cfg0.N) :
    (dats m 0 c).flushed 5 t
      = ((cfg0.win 5).blk t).view.read (Elt Ideal)
          (outArr (V m c main_arg0) (V m c main_arg1) (V m c main_arg2) (V m c main_arg3) (maskW m c)) := by
  rw [Value.flushed5]
  funext y
  exact out_block_eq m c t y _ rfl rfl rfl

/-! ## The blocks cover the arrays -/

theorem mem_blk6 (t : Fin cfg0.N) (i : S16x2048x2048.Idx) :
    i ∈ ((cfg0.win 6).blk t).view.set ↔ ∀ a : Fin 3, win0_6.index t a * S1x512x2048.size a ≤ (i a).val
      ∧ (i a).val < win0_6.index t a * S1x512x2048.size a + S1x512x2048.size a := by
  show i ∈ ((View.whole main_v1_1).slice (win0_6.rect t)).set ↔ _
  rw [View.set_slice_whole, Rect.mem_set_unit]
  exact Iff.rfl

theorem mem_blk5 (t : Fin cfg0.N) (i : S16x2048x64.Idx) :
    i ∈ ((cfg0.win 5).blk t).view.set ↔ ∀ a : Fin 3, win0_5.index t a * S1x512x64.size a ≤ (i a).val
      ∧ (i a).val < win0_5.index t a * S1x512x64.size a + S1x512x64.size a := by
  show i ∈ ((View.whole main_v1_0).slice (win0_5.rect t)).set ↔ _
  rw [View.set_slice_whole, Rect.mem_set_unit]
  exact Iff.rfl

/-- Row q of batch b of the attention array lies in the block of the point whose block index is (b, q / 512, 0). -/
theorem cover_attn (i : S16x2048x2048.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 2048 := (i 2).isLt
  obtain ⟨t, ht⟩ := idx_onto6 ⟨(i 0).val, by omega⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

/-- Row q of batch b of the output array likewise. -/
theorem cover_out (i : S16x2048x64.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 64 := (i 2).isLt
  obtain ⟨t, ht⟩ := idx_onto5 ⟨(i 0).val, by omega⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 64 ≤ (i 2).val ∧ (i 2).val < win0_5.index t (2 : Fin 3) * 64 + 64; omega

/-! ## The whole arrays, over the arguments as launched -/

/-- The mask the region finds is the mask argument widened to 32-bit words. -/
theorem V_mask (c : Dev nD) :
    (V m c main_v0 : S16x2048x2048.Idx → BitVec 32) = extui 32 (m ((c : Thread nD τ).loc main_arg4)) natLt_1_32 := by
  dsimp only [Gen.V, Gen.hostOps0]; after_results

/-- So its words compared with zero are the mask argument's bits. -/
theorem maskW_eq (c : Dev nD) : maskW m c = m ((c : Thread nD τ).loc main_arg4) := by
  funext i
  unfold maskW
  rw [V_mask]
  exact ne_zero_setWidth _

/-- The attention array after the run. -/
theorem final_attn (c : Dev nD) :
    (dats m 0 c).arrAt 6 cfg0.N
      = attnArr (m ((c : Thread nD τ).loc main_arg0)) (m ((c : Thread nD τ).loc main_arg1)) (m ((c : Thread nD τ).loc main_arg3))
          (m ((c : Thread nD τ).loc main_arg4)) := by
  rw [← V_main_arg0 m c, ← V_main_arg1 m c, ← V_main_arg3 m c, ← maskW_eq m c]
  exact (dats m 0 c).arrAt_eq_of_cover 6 _ (fun t _ => flushed_attn m c t) cover_attn

/-- The output array after the run. -/
theorem final_out (c : Dev nD) :
    (dats m 0 c).arrAt 5 cfg0.N
      = outArr (m ((c : Thread nD τ).loc main_arg0)) (m ((c : Thread nD τ).loc main_arg1)) (m ((c : Thread nD τ).loc main_arg2))
          (m ((c : Thread nD τ).loc main_arg3)) (m ((c : Thread nD τ).loc main_arg4)) := by
  rw [← V_main_arg0 m c, ← V_main_arg1 m c, ← V_main_arg2 m c, ← V_main_arg3 m c, ← maskW_eq m c]
  exact (dats m 0 c).arrAt_eq_of_cover 5 _ (fun t _ => flushed_out m c t) cover_out

/-- The kernel's run: both results at the arrays of Spec.lean of the arguments as launched, the arguments unchanged. -/
theorem run : θ_run defs (onTc (τ := τ) (main (F := Ideal))) ⟨m, fun _ => 0, ρ⟩ fun r => ∀ c : Dev nD,
      r.2.mem ((c : Thread nD τ).loc main_v1_0)
        = outArr (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v1_1)
        = attnArr (m ((c : Thread nD τ).loc main_arg0)) (m ((c : Thread nD τ).loc main_arg1)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_attn m c), (h c).2.2⟩)
    (Value.run_blocks m ρ)

end Cert.Attn.Blocks

end
-- ==== Proof.lean ====
/-
  Masked scaled dot-product attention with a reweighted softmax: the kernel against its jnp reference, on the
  extended reals.

  Both programs compute, for every batch b, query row r and key c, the score q[b,r,·]·k[b,c,·] scaled by 1/8 (the
  kernel multiplies by 0.125, the reference divides by 8: one value on every extended real), overwrite it with the
  same fill word where the mask is set, take the softmax along the keys (the maximum from −∞, the shifted
  exponentials, their sum, the quotient), multiply by the weight at (b, r, c), and return that attention array together
  with its product with the values. The kernel does this for 512 query rows of one batch at a time, with every key of
  the batch in the block, so each row's maximum and sum run over the whole row; sums are sums in a commutative
  monoid, so no order or grouping matters, and no entry needs to be finite: the precondition is never opened.

  Spec.lean states the two result arrays as functions of the arguments; RefSide.lean shows the reference's run ends
  at them; KernelRow.lean that the kernel body computes their rows on a grid point's blocks; KernelBlocks.lean that
  the blocks written back make up the whole arrays. The idealization rewrote nothing, so that claim is trivial; the
  frames are the generated ones, the reference's being its run with the results dropped.
-/
import proofs.«145765_j38525856645257_2_alg».proof.Defs
import proofs.«145765_j38525856645257_2_alg».proof.Proof.Gen.Kernel
import proofs.«145765_j38525856645257_2_alg».proof.Proof.Gen.Kernel.Skeleton
import proofs.«145765_j38525856645257_2_alg».proof.Proof.Gen.Kernel.Launch
import proofs.«145765_j38525856645257_2_alg».proof.Proof.Gen.Kernel.Points
import proofs.«145765_j38525856645257_2_alg».proof.Proof.Gen.Kernel.Frame
import proofs.«145765_j38525856645257_2_alg».proof.Proof.Gen.KernelIdeal
import proofs.«145765_j38525856645257_2_alg».proof.Proof.Gen.KernelIdeal.Skeleton
import proofs.«145765_j38525856645257_2_alg».proof.Proof.Gen.KernelIdeal.Launch
import proofs.«145765_j38525856645257_2_alg».proof.Proof.Gen.KernelIdeal.Points
import proofs.«145765_j38525856645257_2_alg».proof.Proof.Gen.KernelIdeal.Frame
import proofs.«145765_j38525856645257_2_alg».proof.Proof.Gen.KernelIdeal.Value
import proofs.«145765_j38525856645257_2_alg».proof.Proof.Gen.ReferenceIdeal
import proofs.«145765_j38525856645257_2_alg».proof.Proof.Gen.ReferenceIdeal.Run
import proofs.«145765_j38525856645257_2_alg».proof.Proof.Gen.ReferenceIdeal.Read
import proofs.«145765_j38525856645257_2_alg».proof.Proof.Gen.Pre_finite_inputs
import proofs.«145765_j38525856645257_2_alg».proof.Proof.RefSide
import proofs.«145765_j38525856645257_2_alg».proof.Proof.KernelBlocks
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the output array and the attention array of Spec.lean of arguments that agree. -/
theorem algebraic : Cert.algebraic_KernelIdeal_ReferenceIdeal := by
  intro m ρ m' ρ' _ hagree
  refine ⟨_, _, Cert.Attn.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v16_eq, Cert.Attn.Ref.ref_out, (hagree c).1, (hagree c).2.1, (hagree c).2.2.1,
      (hagree c).2.2.2.1, (hagree c).2.2.2.2]
  · rw [Cert.ReferenceIdeal.Read.val_main_v15_eq, Cert.Attn.Ref.ref_attn, (hagree c).1, (hagree c).2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
